-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x1024 : Shape := ⟨3, ![8, 64, 1024]⟩
abbrev S1024x1024 : Shape := ⟨2, ![1024, 1024]⟩
abbrev S1024 : Shape := ⟨1, ![1024]⟩
abbrev S32000x1024 : Shape := ⟨2, ![32000, 1024]⟩
abbrev S_ : Shape := ⟨0, ![]⟩

class Facts : Prop where
  bcast_S_S8x64x1024 : S_.BroadcastsInDim S8x64x1024 (![] : Fin 0 → Fin S8x64x1024.rank)
  reducesTo_S8x64x1024_S_d0_1_2 : S8x64x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S32000x1024 : S_.BroadcastsInDim S32000x1024 (![] : Fin 0 → Fin S32000x1024.rank)
  reducesTo_S32000x1024_S_d0_1 : S32000x1024.ReducesTo [0, 1] S_

variable [Facts]

def fn_part1 {F : FTy → Type} [FloatOps F] (main_v13 : IVec S_ 1) (main_v16 : IVec S32000x1024 1) : IVec S_ 1 :=
  let main_c_5 : IVec S_ 1 := constantI S_ 1 1#1
  let main_v17 : IVec S_ 1 := (fun x v => Host.reduce IntOp.andi x v reducesTo_S32000x1024_S_d0_1 h_S_) main_v16 main_c_5
  let main_v18 : IVec S_ 1 := andi main_v13 main_v17
  main_v18

def fn {F : FTy → Type} [FloatOps F] (main_arg0 : FVec F S8x64x1024 .f32) (main_arg1 : FVec F S1024x1024 .f32) (main_arg2 : FVec F S1024 .f32) (main_arg3 : FVec F S32000x1024 .f32) : IVec S_ 1 :=
  let main_v0 : FVec F S8x64x1024 .f32 := Host.absf main_arg0
  let main_cst : FVec F S_ .f32 := constant S_ .f32 0x7F800000#32
  let main_v1 : FVec F S8x64x1024 .f32 := broadcastInDim S8x64x1024 ![] bcast_S_S8x64x1024 main_cst
  let main_v2 : IVec S8x64x1024 1 := cmpf .olt main_v0 main_v1
  let main_c : IVec S_ 1 := constantI S_ 1 1#1
  let main_v3 : IVec S_ 1 := (fun x v => Host.reduce IntOp.andi x v reducesTo_S8x64x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S32000x1024 .f32 := Host.absf main_arg3
  let main_cst_4 : FVec F S_ .f32 := constant S_ .f32 0x7F800000#32
  let main_v15 : FVec F S32000x1024 .f32 := broadcastInDim S32000x1024 ![] bcast_S_S32000x1024 main_cst_4
  let main_v16 : IVec S32000x1024 1 := cmpf .olt main_v14 main_v15
  fn_part1 (F := F) main_v13 main_v16
-- ==== Kernel.lean ====
abbrev S8x64x1024 : Shape := ⟨3, ![8, 64, 1024]⟩
abbrev S1024x1024 : Shape := ⟨2, ![1024, 1024]⟩
abbrev S1024 : Shape := ⟨1, ![1024]⟩
abbrev S32000x1024 : Shape := ⟨2, ![32000, 1024]⟩
abbrev S512x1024 : Shape := ⟨2, ![512, 1024]⟩
abbrev S1x1024 : Shape := ⟨2, ![1, 1024]⟩
abbrev S256x1024 : Shape := ⟨2, ![256, 1024]⟩
abbrev S512x32000 : Shape := ⟨2, ![512, 32000]⟩
abbrev S640x1024 : Shape := ⟨2, ![640, 1024]⟩
abbrev S512x640 : Shape := ⟨2, ![512, 640]⟩
abbrev S8x64x32000 : Shape := ⟨3, ![8, 64, 32000]⟩

abbrev nBuf : Space → Nat
  | .hbm => 9
  | .vmem => 11
  | .smem => 0
  | _ => 0

abbrev bufTy : (tb : Table) → Fin (tcTables nBuf tb) → BufTy
  | .hbm, ⟨0, _⟩ => ⟨S8x64x1024, .f32⟩
  | .hbm, ⟨1, _⟩ => ⟨S1024x1024, .f32⟩
  | .hbm, ⟨2, _⟩ => ⟨S1024, .f32⟩
  | .hbm, ⟨3, _⟩ => ⟨S32000x1024, .f32⟩
  | .hbm, ⟨4, _⟩ => ⟨S512x1024, .f32⟩
  | .hbm, ⟨5, _⟩ => ⟨S1x1024, .f32⟩
  | .hbm, ⟨6, _⟩ => ⟨S512x1024, .bf16⟩
  | .hbm, ⟨7, _⟩ => ⟨S512x32000, .f32⟩
  | .hbm, ⟨8, _⟩ => ⟨S8x64x32000, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S640x1024, .f32⟩
  | .local _ .vmem, ⟨8, _⟩ => ⟨S640x1024, .f32⟩
  | .local _ .vmem, ⟨9, _⟩ => ⟨S512x640, .f32⟩
  | .local _ .vmem, ⟨10, _⟩ => ⟨S512x640, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S640x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8x64x1024_S512x1024 : S8x64x1024.ShapeCasts S512x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  packedbf16_S256x1024_S256x1024_0_0 : (Rect.unit (s := S256x1024) ![0, 0] S256x1024.size inb_S256x1024_S256x1024_0_0).PackedRows (EltTy.packing .bf16)
  inb_S640x1024_S640x1024_0_0 : ∀ a, (![0, 0] : Fin 2 → Nat) a + S640x1024.size a ≤ S640x1024.size a
  h_S640x1024 : 0 < S640x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x640_S512x640_0_0 : ∀ a, (![0, 0] : Fin 2 → Nat) a + S512x640.size a ≤ S512x640.size a
  h_S512x640 : 0 < S512x640.numel
  shapeCasts_S512x32000_S8x64x32000 : S512x32000.ShapeCasts S8x64x32000
  dot_S256x1024_S1024x1024_S256x1024_1_1_0_0_n_n_wf : DotDims.WF S256x1024 S1024x1024 S256x1024 [1] [1] [0] [0] [] []
  dot_S512x1024_S640x1024_S512x640_1_1_0_0_n_n_wf : DotDims.WF S512x1024 S640x1024 S512x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x1024.size a
  hwx0_0 : ∀ i : grid0.Coords, EltTy.bits .f32 = 32 ∨ (Rect.block (s := S512x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S512x1024.size a
  hwx0_3 : ∀ i : grid0.Coords, EltTy.bits .bf16 = 32 ∨ (Rect.block (s := S512x1024) S256x1024.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x1024.size a
  hwx1_0 : ∀ i : grid1.Coords, EltTy.bits .bf16 = 32 ∨ (Rect.block (s := S512x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x1024.size a ≤ S32000x1024.size a
  hwx1_1 : ∀ i : grid1.Coords, EltTy.bits .f32 = 32 ∨ (Rect.block (s := S32000x1024) S640x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x640.size a ≤ S512x32000.size a
  hwx1_2 : ∀ i : grid1.Coords, EltTy.bits .f32 = 32 ∨ (Rect.block (s := S512x32000) S512x640.size (cc1_transform_2 i) (hinb1_2 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S512x1024_S640x1024_S512x640_1_1_0_0_n_n : DotDims S512x1024 S640x1024 S512x640 where
  lhsContracting := [1]
  rhsContracting := [1]
  lhsNonContracting := [0]
  rhsNonContracting := [0]
  lhsBatch := []
  rhsBatch := []
  wf := dot_S512x1024_S640x1024_S512x640_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S640x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x640.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x64x1024 : Shape := ⟨3, ![8, 64, 1024]⟩
abbrev S1024x1024 : Shape := ⟨2, ![1024, 1024]⟩
abbrev S1024 : Shape := ⟨1, ![1024]⟩
abbrev S32000x1024 : Shape := ⟨2, ![32000, 1024]⟩
abbrev S512x1024 : Shape := ⟨2, ![512, 1024]⟩
abbrev S1x1024 : Shape := ⟨2, ![1, 1024]⟩
abbrev S512x32000 : Shape := ⟨2, ![512, 32000]⟩
abbrev S2048x1024 : Shape := ⟨2, ![2048, 1024]⟩
abbrev S512x2048 : Shape := ⟨2, ![512, 2048]⟩
abbrev S8x64x32000 : Shape := ⟨3, ![8, 64, 32000]⟩

abbrev nBuf : Space → Nat
  | .hbm => 9
  | .vmem => 9
  | .smem => 0
  | _ => 0

abbrev bufTy : (tb : Table) → Fin (tcTables nBuf tb) → BufTy
  | .hbm, ⟨0, _⟩ => ⟨S8x64x1024, .f32⟩
  | .hbm, ⟨1, _⟩ => ⟨S1024x1024, .f32⟩
  | .hbm, ⟨2, _⟩ => ⟨S1024, .f32⟩
  | .hbm, ⟨3, _⟩ => ⟨S32000x1024, .f32⟩
  | .hbm, ⟨4, _⟩ => ⟨S512x1024, .f32⟩
  | .hbm, ⟨5, _⟩ => ⟨S1x1024, .f32⟩
  | .hbm, ⟨6, _⟩ => ⟨S512x1024, .f32⟩
  | .hbm, ⟨7, _⟩ => ⟨S512x32000, .f32⟩
  | .hbm, ⟨8, _⟩ => ⟨S8x64x32000, .f32⟩
  | .local _ .vmem, ⟨0, _⟩ => ⟨S512x1024, .f32⟩
  | .local _ .vmem, ⟨1, _⟩ => ⟨S1024x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S2048x1024, .f32⟩
  | .local _ .vmem, ⟨6, _⟩ => ⟨S2048x1024, .f32⟩
  | .local _ .vmem, ⟨7, _⟩ => ⟨S512x2048, .f32⟩
  | .local _ .vmem, ⟨8, _⟩ => ⟨S512x2048, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S8x64x1024_S512x1024 : S8x64x1024.ShapeCasts S512x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S2048x1024_S2048x1024_0_0 : ∀ a, (![0, 0] : Fin 2 → Nat) a + S2048x1024.size a ≤ S2048x1024.size a
  h_S2048x1024 : 0 < S2048x1024.numel
  inb_S512x2048_S512x2048_0_0 : ∀ a, (![0, 0] : Fin 2 → Nat) a + S512x2048.size a ≤ S512x2048.size a
  h_S512x2048 : 0 < S512x2048.numel
  shapeCasts_S512x32000_S8x64x32000 : S512x32000.ShapeCasts S8x64x32000
  dot_S512x1024_S1024x1024_S512x1024_1_1_0_0_n_n_wf : DotDims.WF S512x1024 S1024x1024 S512x1024 [1] [1] [0] [0] [] []
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x1024.size a
  hwx1_0 : ∀ i : grid1.Coords, EltTy.bits .f32 = 32 ∨ (Rect.block (s := S512x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x1024.size a < S32000x1024.size a
  hwx1_1 : ∀ i : grid1.Coords, EltTy.bits .f32 = 32 ∨ (Rect.unit (s := S32000x1024) (fun a => cc1_transform_1 i a * S2048x1024.size a) (fun a => (Pipeline.Clip.of (cc1_transform_1 i a) (S2048x1024.size a) (S32000x1024.size a)).extent (S2048x1024.size a)) fun a => Pipeline.Clip.inb (Pipeline.Clip.ok_of (hstart1_1 i a))).WholeWords (EltTy.packing .f32)
  hwxs1_1 : ∀ i : grid1.Coords, EltTy.bits .f32 = 32 ∨ (Rect.unit (s := S2048x1024) (fun _ => 0) (fun a => (Pipeline.Clip.of (cc1_transform_1 i a) (S2048x1024.size a) (S32000x1024.size a)).extent (S2048x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S512x2048.size a < S512x32000.size a
  hwx1_2 : ∀ i : grid1.Coords, EltTy.bits .f32 = 32 ∨ (Rect.unit (s := S512x32000) (fun a => cc1_transform_2 i a * S512x2048.size a) (fun a => (Pipeline.Clip.of (cc1_transform_2 i a) (S512x2048.size a) (S512x32000.size a)).extent (S512x2048.size a)) fun a => Pipeline.Clip.inb (Pipeline.Clip.ok_of (hstart1_2 i a))).WholeWords (EltTy.packing .f32)
  hwxs1_2 : ∀ i : grid1.Coords, EltTy.bits .f32 = 32 ∨ (Rect.unit (s := S512x2048) (fun _ => 0) (fun a => (Pipeline.Clip.of (cc1_transform_2 i a) (S512x2048.size a) (S512x32000.size a)).extent (S512x2048.size a)) fun a => (Nat.zero_add _).trans_le (Pipeline.Clip.extent_le (Pipeline.Clip.ok_of (hstart1_2 i a)))).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v0) S512x1024.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x1024.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg3) S2048x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v3) S512x2048.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.KRun.lean ====
/-
  The whole program's run with the result buffer read.

  The program is four stretches: two reshapes, the hidden layer as a grid of two row blocks, the vocabulary
  projection as a grid of fifty column blocks, and a last reshape. The contents of every buffer at each boundary
  between stretches are a fold from the launch memory. Here the run is stated once with the result buffer at the last
  boundary's contents, beside the four arguments, which no stretch writes.
-/
import proofs.«142579_g2000502499518764_pallasbulk_978_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from any memory with zero counters terminates, and in every final state the result
    buffer holds the last boundary's contents at that buffer, and each argument is as launched. -/
theorem run_W4 : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.KRun

end
-- ==== Proof.KHost.lean ====
/-
  The reshapes around the two grids, and what each grid reads.

  Before the first grid the token array [8, 64, 1024] is reshaped to [512, 1024] and the bias [1024] to [1, 1024];
  the weight matrix and the embedding table are read as launched. After the second grid the logits [512, 32000] are
  reshaped to [8, 64, 32000]. A reshape keeps the row-major order of the elements, so each of these buffers is a
  shape cast of another buffer's contents; a buffer no operation writes keeps its contents through the fold.
-/
import proofs.«142579_g2000502499518764_pallasbulk_978_2_alg».proof.Proof.Gen.KernelIdeal.Frame

set_option maxRecDepth 16384

noncomputable section

namespace Cert.KernelIdeal.KHost

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The result buffer at the end is the second grid's output array, reshaped to [8, 64, 32000]. -/
theorem result_is_reshaped_logits (c : Dev nD) :
    (W4 m ρ c (Proc.devRef .tc main_v4) : S8x64x32000.Idx → Elt F .f32)
      = shapeCast S8x64x32000 (W3 m ρ c (Proc.devRef .tc main_v3) : S512x32000.Idx → Elt F .f32)
          shapeCasts_S512x32000_S8x64x32000 := by
  show StableHlo.after hostOps2 (W3 m ρ c) (Proc.devRef .tc main_v4) = _
  after_results
  rfl

/-- The first grid's token rows are the token array reshaped to [512, 1024]. -/
theorem tokens_reshaped (c : Dev nD) :
    (V1 m ρ c main_v0 : S512x1024.Idx → Elt F .f32)
      = shapeCast S512x1024 (m ((c.tc : Thread nD τ).loc main_arg0) : S8x64x1024.Idx → Elt F .f32)
          shapeCasts_S8x64x1024_S512x1024 := by
  show StableHlo.after hostOps0 (W0 m ρ c) (Proc.devRef .tc main_v0) = _
  after_results
  rfl

/-- The first grid's bias row is the bias reshaped to [1, 1024]. -/
theorem bias_reshaped (c : Dev nD) :
    (V1 m ρ c main_v1 : S1x1024.Idx → Elt F .f32)
      = shapeCast S1x1024 (m ((c.tc : Thread nD τ).loc main_arg2) : S1024.Idx → Elt F .f32)
          shapeCasts_S1024_S1x1024 := by
  show StableHlo.after hostOps0 (W0 m ρ c) (Proc.devRef .tc main_v1) = _
  after_results
  rfl

/-- The first grid reads the weight matrix as launched: neither reshape writes it. -/
theorem weights_as_launched (c : Dev nD) :
    V1 m ρ c main_arg1 = m ((c.tc : Thread nD τ).loc main_arg1) := by
  show StableHlo.after hostOps0 (W0 m ρ c) (Proc.devRef .tc main_arg1) = _
  after_results

/-- The second grid reads the embedding table as launched: the first grid has no window on it and neither reshape
    writes it. -/
theorem table_as_launched (c : Dev nD) :
    V2 m ρ c main_arg3 = m ((c.tc : Thread nD τ).loc main_arg3) := by
  refine (W2_of_ne m ρ c main_arg3 (by decide)).trans ?_
  show StableHlo.after hostOps0 (W0 m ρ c) (Proc.devRef .tc main_arg3) = _
  after_results

/-- The second grid reads, as its hidden layer, the first grid's output array after all its write-backs. -/
theorem hidden_is_first_output (c : Dev nD) :
    V2 m ρ c main_v2 = (dat0 (V1 m ρ) c).arrAt 3 cfg0.N := W2_arr m ρ c 3

/-- After the second grid the logits buffer holds its output array after all its write-backs. -/
theorem logits_is_second_output (c : Dev nD) :
    W3 m ρ c (Proc.devRef .tc main_v3) = (dat1 (V2 m ρ) c).arrAt 2 cfg1.N := W3_arr m ρ c 2

end Cert.KernelIdeal.KHost

end
-- ==== Proof.Spec.lean ====
/-
  The function both programs compute, stated once over the flattened arrays.

  With x : [512, 1024] (the 8·64 token rows), w : [1024, 1024] (rows are output features), b : [1, 1024] and
  e : [32000, 1024] (rows are vocabulary entries):
    hidden (p, n) = max (Σ_j x (p, j) · w (n, j) + b (0, n)) 0
    logits (p, v) = Σ_k hidden (p, k) · e (v, k)
  Both contractions run over the last axis of both operands. Every operation is the extended reals' own; a change
  of float format is the identity there, so the sixteen-bit intermediate of one program and the thirty-two-bit one
  of the other are the same array.
-/
import Idealize.ShloMosaic.PureOps.Ideal
import Idealize.ShloMosaic.Lib.ValueIdx

noncomputable section

open scoped BigOperators

namespace Cert.Spec

open Idealize.ShloMosaic Idealize.ShloMosaic.ValueIdx

/-- One entry of the hidden layer: row `p` of `x` against row `n` of `w`, plus the bias of feature `n`, clamped
    below at zero. -/
def hiddenAt (x : (⟨2, ![512, 1024]⟩ : Shape).Idx → EReal) (w : (⟨2, ![1024, 1024]⟩ : Shape).Idx → EReal)
    (b : (⟨2, ![1, 1024]⟩ : Shape).Idx → EReal) (p : Fin 512) (n : Fin 1024) : EReal :=
  max ((∑ j : Fin 1024, x (ix2 p j) * w (ix2 n j)) + b (ix2 0 n)) 0

/-- The hidden layer as an array. -/
def hidden (x : (⟨2, ![512, 1024]⟩ : Shape).Idx → EReal) (w : (⟨2, ![1024, 1024]⟩ : Shape).Idx → EReal)
    (b : (⟨2, ![1, 1024]⟩ : Shape).Idx → EReal) : (⟨2, ![512, 1024]⟩ : Shape).Idx → EReal :=
  fun i => hiddenAt x w b (i 0) (i 1)

/-- One logit: row `p` of the hidden layer against row `v` of the embedding table. -/
def logitsAt (h : (⟨2, ![512, 1024]⟩ : Shape).Idx → EReal) (e : (⟨2, ![32000, 1024]⟩ : Shape).Idx → EReal)
    (p : Fin 512) (v : Fin 32000) : EReal :=
  ∑ k : Fin 1024, h (ix2 p k) * e (ix2 v k)

/-- The logits as an array. -/
def logits (h : (⟨2, ![512, 1024]⟩ : Shape).Idx → EReal) (e : (⟨2, ![32000, 1024]⟩ : Shape).Idx → EReal) :
    (⟨2, ![512, 32000]⟩ : Shape).Idx → EReal :=
  fun i => logitsAt h e (i 0) (i 1)

theorem hidden_ix2 (x : (⟨2, ![512, 1024]⟩ : Shape).Idx → EReal) (w : (⟨2, ![1024, 1024]⟩ : Shape).Idx → EReal)
    (b : (⟨2, ![1, 1024]⟩ : Shape).Idx → EReal) (p : Fin 512) (n : Fin 1024) :
    hidden x w b (ix2 p n) = hiddenAt x w b p n := rfl

theorem logits_ix2 (h : (⟨2, ![512, 1024]⟩ : Shape).Idx → EReal) (e : (⟨2, ![32000, 1024]⟩ : Shape).Idx → EReal)
    (p : Fin 512) (v : Fin 32000) : logits h e (ix2 p v) = logitsAt h e p v := rfl

end Cert.Spec

end
-- ==== Proof.LibDotT.lean ====
/-
  A matrix product with the right operand transposed, read at an entry.

  For a product of an [M, K] array with an [N, K] array that contracts the LAST axis of both (dimension numbers
  [1], [1], [0], [0], no batch axis) into a zero accumulator, the (p, q) entry over the extended reals is
  Σ_k l (p, k) · r (q, k). The statement takes the two facts about the dimension record that are decided by
  unfolding it at a concrete record (the operands' leading coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- The (p, q) entry of `l · rᵀ` accumulated from zero is the sum over the shared last axis. -/
theorem matmulT_zero_apply {M N K : Nat} {φ₁ φ₂ : FTy}
    (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (hl0 : ∀ j k, (d.lhsIdx j k 0).val = (j 0).val) (hr0 : ∀ j k, (d.rhsIdx j k 0).val = (j 1).val)
    (prec : Option ContractPrecision)
    (l : FVec Ideal ⟨2, ![M, K]⟩ φ₁) (r : FVec Ideal ⟨2, ![N, K]⟩ φ₂) (p : Fin M) (q : Fin N) :
    matmul d prec l r (constant (F := Ideal) ⟨2, ![M, N]⟩ .f32 0x00000000#32) (ix2 p q)
      = ∑ k : Fin K, l (ix2 p k) * r (ix2 q k) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 p k := by
    funext a; apply Fin.ext
    match a with
    | ⟨0, _⟩ => exact hl0 _ _
    | ⟨1, _⟩ => exact (d.lhsIdx_val_of_single hl _ _).trans (contrEquiv1_symm_val d K hrank hsize k)
  have e2 : d.rhsIdx (ix2 p q) ((contrEquiv1 d K hrank hsize).symm k) = ix2 q k := by
    funext a; apply Fin.ext
    match a with
    | ⟨0, _⟩ => exact hr0 _ _
    | ⟨1, _⟩ => exact (d.rhsIdx_val_of_single hr _ _).trans (contrEquiv1_symm_val d K hrank hsize k)
  rw [e1, e2]

end Cert.LibDotT

end
-- ==== Proof.KHidden.lean ====
/-
  The first grid computes the hidden layer.

  The grid has two points; point t works on token rows 256·t … 256·t + 255. It reads that row block of x, the whole
  weight matrix and the whole bias row, and writes the same row block of the output. One entry (p, n) of what it
  writes is max (Σ_j x (256·t + p, j) · w (n, j) + b (0, n)) 0: the product contracts the last axis of both operands
  into a zero accumulator, the bias row is broadcast down the rows, the clamp is against a broadcast zero, and the
  changes of float format are the identity on the extended reals. That is entry (256·t + p, n) of the hidden layer
  of the arrays the grid finds, so every point writes its block of ONE array; the two row blocks cover all 512 rows
  (row r lies in block r / 256), so after the write-backs the output array is the hidden layer.

  Everything is stated for arbitrary contents V of the buffers at the grid's entry.
-/
import proofs.«142579_g2000502499518764_pallasbulk_978_2_alg».proof.Proof.Gen.KernelIdeal.Frame
import proofs.«142579_g2000502499518764_pallasbulk_978_2_alg».proof.Proof.Spec
import proofs.«142579_g2000502499518764_pallasbulk_978_2_alg».proof.Proof.LibDotT
import Idealize.ShloMosaic.Lib.Pipeline.Value

set_option maxRecDepth 16384

noncomputable section

open scoped BigOperators

namespace Cert.KernelIdeal.KHidden

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The body loads and stores its whole staging buffers: through offsets zero on both axes. -/
theorem zero_offsets : (![0, 0] : Fin 2 → Nat) = fun _ => 0 := funext fun a => by fin_cases a <;> rfl

/-! ## One entry of what the body computes -/

/-- Entry (p, n) of the body's result from its three loaded blocks: row p of the first against row n of the second,
    plus the bias of column n, clamped below at zero. -/
theorem body_entry (x0 : Vec Ideal S256x1024 .f32) (x1 : Vec Ideal S1024x1024 .f32) (x2 : Vec Ideal S1x1024 .f32)
    (p : Fin 256) (n : Fin 1024) :
    k0_pay1 x0 x1 x2 (ix2 p n) = max ((∑ j : Fin 1024, x0 (ix2 p j) * x1 (ix2 n j)) + x2 (ix2 0 n)) 0 := by
  have hmm := Cert.LibDotT.matmulT_zero_apply dot_S256x1024_S1024x1024_S256x1024_1_1_0_0_n_n rfl rfl rfl rfl
    (fun _ _ => rfl) (fun _ _ => rfl) none
    (truncf .bf16 (shapeCast S256x1024 x0 shapeCasts_S256x1024_S256x1024) bitsLt_bf16_f32)
    (truncf .bf16 x1 bitsLt_bf16_f32) p n
  have hb : broadcastTo S256x1024 (shapeCast S1x1024 x2 shapeCasts_S1x1024_S1x1024) broadcasts_S1x1024_S256x1024 (ix2 p n)
      = x2 (ix2 0 n) := by
    rw [shapeCast_self]
    exact broadcastTo_apply x2 broadcasts_S1x1024_S256x1024 (ix2 p n) (ix2 0 n)
      (fun a => match a with | ⟨0, _⟩ => rfl | ⟨1, _⟩ => rfl)
  show max (matmul dot_S256x1024_S1024x1024_S256x1024_1_1_0_0_n_n none
        (truncf .bf16 (shapeCast S256x1024 x0 shapeCasts_S256x1024_S256x1024) bitsLt_bf16_f32)
        (truncf .bf16 x1 bitsLt_bf16_f32) (constant (F := Ideal) S256x1024 .f32 0x00000000#32) (ix2 p n)
      + broadcastTo S256x1024 (shapeCast S1x1024 x2 shapeCasts_S1x1024_S1x1024) broadcasts_S1x1024_S256x1024 (ix2 p n))
      (Ideal.ofBits .f32 0x00000000#32) = _
  rw [hmm, hb, Ideal.ofBits_zero_f32, shapeCast_self]
  rfl

/-- When row p of the first block is row P of x, the second block is w and the third is b, entry (p, n) of the
    body's result is entry (P, n) of the hidden layer of x, w, b. -/
theorem body_entry_is_hidden (X : S512x1024.Idx → EReal) (Wt : S1024x1024.Idx → EReal) (B : S1x1024.Idx → EReal)
    (x0 : Vec Ideal S256x1024 .f32) (x1 : Vec Ideal S1024x1024 .f32) (x2 : Vec Ideal S1x1024 .f32)
    (p : Fin 256) (n : Fin 1024) (P : Fin 512)
    (h0 : ∀ k : Fin 1024, x0 (ix2 p k) = X (ix2 P k))
    (h1 : ∀ k : Fin 1024, x1 (ix2 n k) = Wt (ix2 n k))
    (h2 : x2 (ix2 0 n) = B (ix2 0 n)) :
    k0_pay1 x0 x1 x2 (ix2 p n) = Cert.Spec.hidden X Wt B (ix2 P n) := by
  rw [body_entry, Cert.Spec.hidden_ix2]
  unfold Cert.Spec.hiddenAt
  rw [h2]
  congr 2
  exact Finset.sum_congr rfl fun k _ => by rw [h0 k, h1 k]

/-! ## Which block each window holds at a point -/

/-- The block indices at point t: the token rows and the output move with t along the rows; the weight matrix and
    the bias row are the one block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the token block at point t is row 256·t + p of the token rows. -/
theorem token_block_entry (c : Dev nD) (t : Fin cfg0.N) (p : Fin 256) (k : Fin 1024) (P : Fin 512)
    (hP : P.val = t.val * 256 + p.val) :
    (iblk0 V c 0 t : Vec Ideal S256x1024 .f32) (ix2 p k) = (V c main_v0 : S512x1024.Idx → EReal) (ix2 P k) := by
  obtain ⟨e00, e01, -⟩ := block_indices t
  unfold iblk0
  rw [View.read_apply]
  show (V c main_v0 : S512x1024.Idx → EReal) _ = _
  congr 1
  funext a
  apply Fin.ext
  match a with
  | ⟨0, _⟩ => show win0_0.index t (0 : Fin 2) * 256 + 1 * p.val = P.val; rw [e00, hP]; omega
  | ⟨1, _⟩ => show win0_0.index t (1 : Fin 2) * 1024 + 1 * k.val = k.val; rw [e01]; omega

/-- The weight block at every point is the weight matrix. -/
theorem weight_block_entry (c : Dev nD) (t : Fin cfg0.N) (n : Fin 1024) (k : Fin 1024) :
    (iblk0 V c 1 t : Vec Ideal S1024x1024 .f32) (ix2 n k) = (V c main_arg1 : S1024x1024.Idx → EReal) (ix2 n k) := by
  obtain ⟨-, -, e10, e11, -⟩ := block_indices t
  unfold iblk0
  rw [View.read_apply]
  show (V c main_arg1 : S1024x1024.Idx → EReal) _ = _
  congr 1
  funext a
  apply Fin.ext
  match a with
  | ⟨0, _⟩ => show win0_1.index t (0 : Fin 2) * 1024 + 1 * n.val = n.val; rw [e10]; omega
  | ⟨1, _⟩ => show win0_1.index t (1 : Fin 2) * 1024 + 1 * k.val = k.val; rw [e11]; omega

/-- The bias block at every point is the bias row. -/
theorem bias_block_entry (c : Dev nD) (t : Fin cfg0.N) (n : Fin 1024) :
    (iblk0 V c 2 t : Vec Ideal S1x1024 .f32) (ix2 0 n) = (V c main_v1 : S1x1024.Idx → EReal) (ix2 0 n) := by
  obtain ⟨-, -, -, -, e20, e21, -⟩ := block_indices t
  unfold iblk0
  rw [View.read_apply]
  show (V c main_v1 : S1x1024.Idx → EReal) _ = _
  congr 1
  funext a
  apply Fin.ext
  match a with
  | ⟨0, _⟩ => show win0_2.index t (0 : Fin 2) * 1 + 1 * 0 = 0; rw [e20]
  | ⟨1, _⟩ => show win0_2.index t (1 : Fin 2) * 1024 + 1 * n.val = n.val; rw [e21]; omega

/-! ## From the blocks to the array -/

/-- The hidden layer of the arrays the grid finds. -/
abbrev hiddenOf (c : Dev nD) : S512x1024.Idx → EReal :=
  Cert.Spec.hidden (V c main_v0) (V c main_arg1) (V c main_v1)

/-- What point t writes back is row block t of the hidden layer. -/
theorem written_back (c : Dev nD) (t : Fin cfg0.N) :
    (dat0 V c).flushed 3 t = ((cfg0.win 3).blk t).view.read (Elt Ideal) (hiddenOf V c) := by
  show (cfg0.win 3).cut (grid0.coords t) ((dat0 V c).after 3 t) = _
  rw [after0_3]
  unfold out0_3
  rw [View.canon_unit_zero zero_offsets]
  simp only [View.ld_unit_zero (S := S256x1024) zero_offsets, View.ld_unit_zero (S := S1024x1024) zero_offsets,
    View.ld_unit_zero (S := S1x1024) zero_offsets]
  obtain ⟨-, -, -, -, -, -, e30, e31⟩ := block_indices t
  have hN : t.val < 2 := Nat.lt_of_lt_of_eq t.isLt (show cfg0.N = 2 from N_0)
  funext j
  have hp : (j 0).val < 256 := (j 0).isLt
  have hn : (j 1).val < 1024 := (j 1).isLt
  have hj : (cfg0.win 3).xinj (grid0.coords t) j = ix2 (⟨(j 0).val, hp⟩ : Fin 256) (⟨(j 1).val, hn⟩ : Fin 1024) := by
    funext a; match a with | ⟨0, _⟩ => rfl | ⟨1, _⟩ => rfl
  have hi : ((cfg0.win 3).blk t).view.emb j
      = ix2 (⟨t.val * 256 + (j 0).val, by omega⟩ : Fin 512) (⟨(j 1).val, hn⟩ : Fin 1024) := by
    funext a; apply Fin.ext
    match a with
    | ⟨0, _⟩ => show win0_3.index t (0 : Fin 2) * 256 + 1 * (j 0).val = t.val * 256 + (j 0).val; rw [e30]; omega
    | ⟨1, _⟩ => show win0_3.index t (1 : Fin 2) * 1024 + 1 * (j 1).val = (j 1).val; rw [e31]; omega
  rw [View.read_apply]
  show k0_pay1 (iblk0 V c 0 t) (iblk0 V c 1 t) (iblk0 V c 2 t) ((cfg0.win 3).xinj (grid0.coords t) j)
    = hiddenOf V c (((cfg0.win 3).blk t).view.emb j)
  rw [hj, hi]
  exact body_entry_is_hidden (V c main_v0) (V c main_arg1) (V c main_v1) (iblk0 V c 0 t) (iblk0 V c 1 t) (iblk0 V c 2 t)
    ⟨(j 0).val, hp⟩ ⟨(j 1).val, hn⟩ ⟨t.val * 256 + (j 0).val, by omega⟩
    (fun k => token_block_entry V c t _ k _ rfl) (fun k => weight_block_entry V c t _ k) (bias_block_entry V c t _)

/-- An index of the output array is in point t's block iff each coordinate is in the block's range on its axis. -/
theorem mem_row_block (t : Fin cfg0.N) (i : S512x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v2).slice (win0_3.rect t)).set ↔ _
  rw [View.set_slice_whole, Rect.mem_set_unit]
  exact Iff.rfl

/-- Every index of the output array is written by some point: row r by point r / 256. -/
theorem rows_covered (i : S512x1024.Idx) :
    ∃ t : Fin cfg0.N, (cfg0.win 3).flush t = true ∧ i ∈ ((cfg0.win 3).blk t).view.set := by
  have hi0 : (i 0).val < 512 := (i 0).isLt
  have hi1 : (i 1).val < 1024 := (i 1).isLt
  obtain ⟨t, ht⟩ : ∃ t : Fin cfg0.N, t.val = (i 0).val / 256 :=
    ⟨⟨(i 0).val / 256, by rw [show cfg0.N = 2 from N_0]; omega⟩, rfl⟩
  obtain ⟨-, -, -, -, -, -, e30, e31⟩ := block_indices t
  refine ⟨t, flush0_3 t, ?_⟩
  rw [mem_row_block]
  intro a
  match a with
  | ⟨0, _⟩ =>
    show win0_3.index t (0 : Fin 2) * 256 ≤ (i 0).val ∧ (i 0).val < win0_3.index t (0 : Fin 2) * 256 + 256
    rw [e30, ht]; omega
  | ⟨1, _⟩ =>
    show win0_3.index t (1 : Fin 2) * 1024 ≤ (i 1).val ∧ (i 1).val < win0_3.index t (1 : Fin 2) * 1024 + 1024
    rw [e31]; omega

/-- After all write-backs the output array is the hidden layer of the arrays the grid found. -/
theorem output_is_hidden (c : Dev nD) :
    (dat0 V c).arrAt 3 cfg0.N = Cert.Spec.hidden (V c main_v0) (V c main_arg1) (V c main_v1) :=
  (dat0 V c).arrAt_eq_of_cover 3 (hiddenOf V c) (fun t _ => written_back V c t) rows_covered

end Cert.KernelIdeal.KHidden

end
-- ==== Proof.KLogits.lean ====
/-
  The second grid computes the logits.

  The grid has fifty points; point t works on vocabulary entries 640·t … 640·t + 639. It reads the whole hidden
  layer [512, 1024] and rows 640·t … 640·t + 639 of the embedding table, and writes columns 640·t … 640·t + 639 of
  the output. One entry (p, v) of what it writes is Σ_k h (p, k) · e (640·t + v, k): the product contracts the last
  axis of both operands into a zero accumulator, and the change of float format of the table block is the identity
  on the extended reals. That is entry (p, 640·t + v) of the logits of the arrays the grid finds, so every point
  writes its block of ONE array; the fifty column blocks cover all 32000 columns (column v lies in block v / 640),
  so after the write-backs the output array is the logits.

  Everything is stated for arbitrary contents V of the buffers at the grid's entry.
-/
import proofs.«142579_g2000502499518764_pallasbulk_978_2_alg».proof.Proof.Gen.KernelIdeal.Frame
import proofs.«142579_g2000502499518764_pallasbulk_978_2_alg».proof.Proof.Spec
import proofs.«142579_g2000502499518764_pallasbulk_978_2_alg».proof.Proof.LibDotT
import Idealize.ShloMosaic.Lib.Pipeline.Value

set_option maxRecDepth 16384

noncomputable section

open scoped BigOperators

namespace Cert.KernelIdeal.KLogits

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The body loads and stores its whole staging buffers: through offsets zero on both axes. -/
theorem zero_offsets : (![0, 0] : Fin 2 → Nat) = fun _ => 0 := funext fun a => by fin_cases a <;> rfl

/-! ## One entry of what the body computes -/

/-- Entry (p, v) of the body's result from its two loaded blocks: row p of the hidden block against row v of the
    table block. -/
theorem body_entry (e : Vec Ideal S640x1024 .f32) (h : Vec Ideal S512x1024 .bf16) (p : Fin 512) (v : Fin 640) :
    k1_pay1 e h (ix2 p v) = ∑ k : Fin 1024, h (ix2 p k) * e (ix2 v k) := by
  have hmm := Cert.LibDotT.matmulT_zero_apply (φ₁ := .bf16) (φ₂ := .bf16)
    dot_S512x1024_S640x1024_S512x640_1_1_0_0_n_n rfl rfl rfl rfl
    (fun _ _ => rfl) (fun _ _ => rfl) none
    (shapeCast S512x1024 (h : FVec Ideal S512x1024 .bf16) shapeCasts_S512x1024_S512x1024)
    (truncf .bf16 e bitsLt_bf16_f32) p v
  show matmul dot_S512x1024_S640x1024_S512x640_1_1_0_0_n_n none
        (shapeCast S512x1024 (h : FVec Ideal S512x1024 .bf16) shapeCasts_S512x1024_S512x1024)
        (truncf .bf16 e bitsLt_bf16_f32) (constant (F := Ideal) S512x640 .f32 0x00000000#32) (ix2 p v) = _
  rw [hmm, shapeCast_self]
  rfl

/-- When the hidden block is the hidden layer and row v of the table block is row q of the table, entry (p, v) of
    the body's result is entry (p, q) of the logits. -/
theorem body_entry_is_logits (H : S512x1024.Idx → EReal) (E : S32000x1024.Idx → EReal)
    (e : Vec Ideal S640x1024 .f32) (h : Vec Ideal S512x1024 .bf16) (p : Fin 512) (v : Fin 640) (q : Fin 32000)
    (h0 : ∀ k : Fin 1024, h (ix2 p k) = H (ix2 p k))
    (h1 : ∀ k : Fin 1024, e (ix2 v k) = E (ix2 q k)) :
    k1_pay1 e h (ix2 p v) = Cert.Spec.logits H E (ix2 p q) := by
  rw [body_entry, Cert.Spec.logits_ix2]
  unfold Cert.Spec.logitsAt
  exact Finset.sum_congr rfl fun k _ => by rw [h0 k, h1 k]

/-! ## Which block each window holds at a point -/

/-- The block indices at point t: the hidden layer is the one block (0, 0); the table moves with t along its rows
    and the output with t along its columns. -/
theorem block_indices : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- The hidden block at every point is the hidden layer. -/
theorem hidden_block_entry (c : Dev nD) (t : Fin cfg1.N) (p : Fin 512) (k : Fin 1024) :
    (iblk1 V c 0 t : Vec Ideal S512x1024 .bf16) (ix2 p k) = (V c main_v2 : S512x1024.Idx → EReal) (ix2 p k) := by
  obtain ⟨e00, e01, -⟩ := block_indices t
  unfold iblk1
  rw [View.read_apply]
  show (V c main_v2 : S512x1024.Idx → EReal) _ = _
  congr 1
  funext a
  apply Fin.ext
  match a with
  | ⟨0, _⟩ => show win1_0.index t (0 : Fin 2) * 512 + 1 * p.val = p.val; rw [e00]; omega
  | ⟨1, _⟩ => show win1_0.index t (1 : Fin 2) * 1024 + 1 * k.val = k.val; rw [e01]; omega

/-- Row v of the table block at point t is row 640·t + v of the table. -/
theorem table_block_entry (c : Dev nD) (t : Fin cfg1.N) (v : Fin 640) (k : Fin 1024) (q : Fin 32000)
    (hq : q.val = t.val * 640 + v.val) :
    (iblk1 V c 1 t : Vec Ideal S640x1024 .f32) (ix2 v k) = (V c main_arg3 : S32000x1024.Idx → EReal) (ix2 q k) := by
  obtain ⟨-, -, e10, e11, -⟩ := block_indices t
  unfold iblk1
  rw [View.read_apply]
  show (V c main_arg3 : S32000x1024.Idx → EReal) _ = _
  congr 1
  funext a
  apply Fin.ext
  match a with
  | ⟨0, _⟩ => show win1_1.index t (0 : Fin 2) * 640 + 1 * v.val = q.val; rw [e10, hq]; omega
  | ⟨1, _⟩ => show win1_1.index t (1 : Fin 2) * 1024 + 1 * k.val = k.val; rw [e11]; omega

/-! ## From the blocks to the array -/

/-- The logits of the arrays the grid finds. -/
abbrev logitsOf (c : Dev nD) : S512x32000.Idx → EReal :=
  Cert.Spec.logits (V c main_v2) (V c main_arg3)

/-- What point t writes back is column block t of the logits. -/
theorem written_back (c : Dev nD) (t : Fin cfg1.N) :
    (dat1 V c).flushed 2 t = ((cfg1.win 2).blk t).view.read (Elt Ideal) (logitsOf V c) := by
  show (cfg1.win 2).cut (grid1.coords t) ((dat1 V c).after 2 t) = _
  rw [after1_2]
  unfold out1_2
  rw [View.canon_unit_zero zero_offsets]
  simp only [View.ld_unit_zero (S := S640x1024) zero_offsets, View.ld_unit_zero (S := S512x1024) zero_offsets]
  obtain ⟨-, -, -, -, e20, e21⟩ := block_indices t
  have hN : t.val < 50 := Nat.lt_of_lt_of_eq t.isLt (show cfg1.N = 50 from N_1)
  funext j
  have hp : (j 0).val < 512 := (j 0).isLt
  have hv : (j 1).val < 640 := (j 1).isLt
  have hj : (cfg1.win 2).xinj (grid1.coords t) j = ix2 (⟨(j 0).val, hp⟩ : Fin 512) (⟨(j 1).val, hv⟩ : Fin 640) := by
    funext a; match a with | ⟨0, _⟩ => rfl | ⟨1, _⟩ => rfl
  have hi : ((cfg1.win 2).blk t).view.emb j
      = ix2 (⟨(j 0).val, hp⟩ : Fin 512) (⟨t.val * 640 + (j 1).val, by omega⟩ : Fin 32000) := by
    funext a; apply Fin.ext
    match a with
    | ⟨0, _⟩ => show win1_2.index t (0 : Fin 2) * 512 + 1 * (j 0).val = (j 0).val; rw [e20]; omega
    | ⟨1, _⟩ => show win1_2.index t (1 : Fin 2) * 640 + 1 * (j 1).val = t.val * 640 + (j 1).val; rw [e21]; omega
  rw [View.read_apply]
  show k1_pay1 (iblk1 V c 1 t) (iblk1 V c 0 t) ((cfg1.win 2).xinj (grid1.coords t) j)
    = logitsOf V c (((cfg1.win 2).blk t).view.emb j)
  rw [hj, hi]
  exact body_entry_is_logits (V c main_v2) (V c main_arg3) (iblk1 V c 1 t) (iblk1 V c 0 t)
    ⟨(j 0).val, hp⟩ ⟨(j 1).val, hv⟩ ⟨t.val * 640 + (j 1).val, by omega⟩
    (fun k => hidden_block_entry V c t _ k) (fun k => table_block_entry V c t _ k _ rfl)

/-- An index of the output array is in point t's block iff each coordinate is in the block's range on its axis. -/
theorem mem_col_block (t : Fin cfg1.N) (i : S512x32000.Idx) :
    i ∈ ((cfg1.win 2).blk t).view.set ↔ ∀ a : Fin 2, win1_2.index t a * S512x640.size a ≤ (i a).val
      ∧ (i a).val < win1_2.index t a * S512x640.size a + S512x640.size a := by
  show i ∈ ((View.whole main_v3).slice (win1_2.rect t)).set ↔ _
  rw [View.set_slice_whole, Rect.mem_set_unit]
  exact Iff.rfl

/-- Every index of the output array is written by some point: column v by point v / 640. -/
theorem cols_covered (i : S512x32000.Idx) :
    ∃ t : Fin cfg1.N, (cfg1.win 2).flush t = true ∧ i ∈ ((cfg1.win 2).blk t).view.set := by
  have hi0 : (i 0).val < 512 := (i 0).isLt
  have hi1 : (i 1).val < 32000 := (i 1).isLt
  obtain ⟨t, ht⟩ : ∃ t : Fin cfg1.N, t.val = (i 1).val / 640 :=
    ⟨⟨(i 1).val / 640, by rw [show cfg1.N = 50 from N_1]; omega⟩, rfl⟩
  obtain ⟨-, -, -, -, e20, e21⟩ := block_indices t
  refine ⟨t, flush1_2 t, ?_⟩
  rw [mem_col_block]
  intro a
  match a with
  | ⟨0, _⟩ =>
    show win1_2.index t (0 : Fin 2) * 512 ≤ (i 0).val ∧ (i 0).val < win1_2.index t (0 : Fin 2) * 512 + 512
    rw [e20]; omega
  | ⟨1, _⟩ =>
    show win1_2.index t (1 : Fin 2) * 640 ≤ (i 1).val ∧ (i 1).val < win1_2.index t (1 : Fin 2) * 640 + 640
    rw [e21, ht]; omega

/-- After all write-backs the output array is the logits of the arrays the grid found. -/
theorem output_is_logits (c : Dev nD) :
    (dat1 V c).arrAt 2 cfg1.N = Cert.Spec.logits (V c main_v2) (V c main_arg3) :=
  (dat1 V c).arrAt_eq_of_cover 2 (logitsOf V c) (fun t _ => written_back V c t) cols_covered

end Cert.KernelIdeal.KLogits

end
-- ==== Proof.KValue.lean ====
/-
  The two-stage program computes the logits of the hidden layer.

  The result buffer ends at the last reshape of the second grid's output array. That array is the logits of what the
  second grid found: the first grid's output array and the embedding table as launched. The first grid's output array
  is the hidden layer of what IT found: the token array and the bias reshaped, and the weight matrix as launched.
  Chaining these equations through the fold of buffer contents gives the result buffer as one function of the four
  launch arrays, beside the run's other facts: it terminates and leaves the arguments unchanged.
-/
import proofs.«142579_g2000502499518764_pallasbulk_978_2_alg».proof.Proof.KRun
import proofs.«142579_g2000502499518764_pallasbulk_978_2_alg».proof.Proof.KHost
import proofs.«142579_g2000502499518764_pallasbulk_978_2_alg».proof.Proof.KHidden
import proofs.«142579_g2000502499518764_pallasbulk_978_2_alg».proof.Proof.KLogits

set_option maxRecDepth 16384

noncomputable section

namespace Cert.KernelIdeal.KValue

open Cert.KernelIdeal Cert.KernelIdeal.Gen Idealize.ShloMosaic Idealize.ShloMosaic.TcCoe Idealize.SL.Sem
open Idealize.SL

variable (m : (ℓ : Loc nD τ sig) → Buf (Elt Ideal) ℓ) (ρ : Dev nD → PrngReg)

/-- The result buffer's last contents: the logits of the hidden layer of the launch arrays, in the result's shape. -/
theorem result_value (c : Dev nD) :
    W4 m ρ c (Proc.devRef .tc main_v4)
      = shapeCast S8x64x32000
          (Cert.Spec.logits
            (Cert.Spec.hidden (shapeCast S512x1024 (m ((c.tc : Thread nD τ).loc main_arg0)) shapeCasts_S8x64x1024_S512x1024)
              (m ((c.tc : Thread nD τ).loc main_arg1))
              (shapeCast S1x1024 (m ((c.tc : Thread nD τ).loc main_arg2)) shapeCasts_S1024_S1x1024))
            (m ((c.tc : Thread nD τ).loc main_arg3)))
          shapeCasts_S512x32000_S8x64x32000 := by
  rw [KHost.result_is_reshaped_logits, KHost.logits_is_second_output, KLogits.output_is_logits (V2 m ρ) c,
    KHost.hidden_is_first_output, KHidden.output_is_hidden (V1 m ρ) c,
    KHost.tokens_reshaped, KHost.bias_reshaped, KHost.weights_as_launched, KHost.table_as_launched]

/-- Every weakly fair execution from any memory with zero counters terminates, and in every final state the result
    buffer holds the logits of the hidden layer of the launch arrays, and each argument is as launched. -/
theorem run : θ_run (defs (F := Ideal)) (onTc (τ := τ) (main (F := Ideal))) ⟨m, fun _ => 0, ρ⟩ (fun r => ∀ c : Dev nD,
      r.2.mem ((c.tc : Thread nD τ).loc main_v4)
        = shapeCast S8x64x32000
            (Cert.Spec.logits
              (Cert.Spec.hidden (shapeCast S512x1024 (m ((c.tc : Thread nD τ).loc main_arg0)) shapeCasts_S8x64x1024_S512x1024)
                (m ((c.tc : Thread nD τ).loc main_arg1))
                (shapeCast S1x1024 (m ((c.tc : Thread nD τ).loc main_arg2)) shapeCasts_S1024_S1x1024))
              (m ((c.tc : Thread nD τ).loc main_arg3)))
            shapeCasts_S512x32000_S8x64x32000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_value m ρ c), (h c).2⟩) (KRun.run_W4 m ρ)

end Cert.KernelIdeal.KValue

end
-- ==== Proof.RBody0.lean ====
/-
  The first pallas_call of the reference, hidden = max (x · wᵀ + b) 0 on a grid of ONE point whose blocks are the
  whole arrays: what the body leaves in the output's staging buffer as a function of the three input blocks, the
  body's Hoare triple, the pipeline's proof data at region-entry contents `V`, and the body obligation.
-/
import proofs.«142579_g2000502499518764_pallasbulk_978_2_alg».proof.Proof.Gen.ReferenceIdeal.Launch
import proofs.«142579_g2000502499518764_pallasbulk_978_2_alg».proof.Proof.Gen.ReferenceIdeal.Skeleton
import proofs.«142579_g2000502499518764_pallasbulk_978_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.RFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-- The output's staging buffer after the body: its one whole store, of the payload of the three loaded blocks. -/
def out0_3 (x0 : Vec F S512x1024 .f32) (x1 : Vec F S1024x1024 .f32) (x2 : Vec F S1x1024 .f32) : Vec F S512x1024 .f32 :=
  View.canon [⟨r0_0, k0_pay1 (View.ld x0 r0_0) (View.ld x1 r0_1) (View.ld x2 r0_2)⟩]

/-- The one store covers the buffer. -/
theorem cover0_3 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

set_option maxHeartbeats 1000000 in
/-- The body on whole staging buffers: the inputs' contents are kept and the output's buffer ends at `out0_3` of them. -/
theorem sound_kernel0 (c : Dev nD) (E : Set ℕ) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole)
    (x0 : Vec F S512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0_ff_relu_kernel i arg2 harg2 arg3 harg3 arg4 harg4 arg5 harg5) K := by
  simp only [cc0_ff_relu_kernel_eq_skeleton]; unfold cc0_ff_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body each input's buffer at its
    block and the output's at `out0_3` of the input blocks; the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first pallas_call, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.RFrame

end
-- ==== Proof.RBody1.lean ====
/-
  The second pallas_call of the reference, logits = hidden · embᵀ, on a grid of 1 × 16 points: the hidden layer whole at
  every point, the embedding table in blocks of 2048 rows and the result in blocks of 2048 columns. 32000 is not a
  multiple of 2048, so the last block of each overhangs its array by 768 rows (columns): the fetch of that block leaves
  the staging rows past the array's end at contents nothing names, and the write-back writes only the columns inside
  the array. What the body computes into those columns does not depend on the unnamed rows: column q of the product
  reads row q of the embedding block only. This file is at the extended reals, where the product is a sum.
-/
import proofs.«142579_g2000502499518764_pallasbulk_978_2_alg».proof.Proof.Gen.ReferenceIdeal.Launch
import proofs.«142579_g2000502499518764_pallasbulk_978_2_alg».proof.Proof.Gen.ReferenceIdeal.Skeleton
import proofs.«142579_g2000502499518764_pallasbulk_978_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«142579_g2000502499518764_pallasbulk_978_2_alg».proof.Proof.LibDotT
import Idealize.ShloMosaic.Lib.ValueIdx
import Idealize.ShloMosaic.Lib.Pipeline.Value

set_option maxRecDepth 16384

noncomputable section

namespace Cert.ReferenceIdeal.RFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig Unit (Elt Ideal) ℕ (UR sig nD τ) ℕ

theorem hz2 : (![0, 0] : Fin 2 → Nat) = fun _ => 0 := funext fun a => by fin_cases a <;> rfl

/-- The whole-buffer rectangles the body loads and stores through. -/
abbrev r1_0 : Rect S512x1024 := Rect.unit (s := S512x1024) ![0, 0] S512x1024.size inb_S512x1024_S512x1024_0_0
abbrev r1_1 : Rect S2048x1024 := Rect.unit (s := S2048x1024) ![0, 0] S2048x1024.size inb_S2048x1024_S2048x1024_0_0
abbrev r1_2 : Rect S512x2048 := Rect.unit (s := S512x2048) ![0, 0] S512x2048.size inb_S512x2048_S512x2048_0_0

/-- The output's staging buffer after the body: its one whole store, of the product of the two loaded blocks. -/
def out1_2 {F : FTy → Type} [FloatOps F] (x0 : Vec F S512x1024 .f32) (x1 : Vec F S2048x1024 .f32) : Vec F S512x2048 .f32 :=
  View.canon [⟨r1_2, k1_pay1 (View.ld x0 r1_0) (View.ld x1 r1_1)⟩]

/-- Entry (p, q) of the block product over the extended reals: row p of the hidden block against row q of the
    embedding block. -/
theorem out1_2_apply (x0 : Vec Ideal S512x1024 .f32) (x1 : Vec Ideal S2048x1024 .f32) (p : Fin 512) (q : Fin 2048) :
    out1_2 x0 x1 (ix2 p q) = ∑ k : Fin 1024, x0 (ix2 p k) * x1 (ix2 q k) := by
  unfold out1_2
  rw [View.canon_unit_zero hz2]
  simp only [View.ld_unit_zero (S := S512x1024) hz2, View.ld_unit_zero (S := S2048x1024) hz2]
  unfold k1_pay1
  rw [shapeCast_self]
  exact Cert.LibDotT.matmulT_zero_apply dot_S512x1024_S2048x1024_S512x2048_1_1_0_0_n_n rfl rfl rfl rfl (fun _ _ => rfl) (fun _ _ => rfl) none x0 x1 p q

/-- The two clipped windows are cut alike: the result block keeps as many columns as the embedding block keeps rows,
    and the embedding block keeps all its 1024 columns (decided over the 16 points). -/
theorem xsize_facts : ∀ t : Fin cfg1.N, win1_2.xsize (grid1.coords t) 1 = win1_1.xsize (grid1.coords t) 0
    ∧ win1_1.xsize (grid1.coords t) 1 = 1024 :=
  (by decide +kernel : ∀ t : Fin grid1.N, win1_2.xsize (grid1.coords t) 1 = win1_1.xsize (grid1.coords t) 0
    ∧ win1_1.xsize (grid1.coords t) 1 = 1024)

variable (V : (c : Dev nD) → (b : Ref sig .tc) → Buf (Elt Ideal) ((c : Thread nD τ).loc b))

/-- Window `w`'s block at point `t`, its part inside the array, read off the array as the region finds it. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The hidden layer's window is uncut and its index never moves: its staging buffer holds the whole array at every point. -/
theorem before1_0_of {c : Dev nD} (dat : Dat τ (Elt Ideal) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body on whole staging buffers: the inputs' contents are kept and the output's buffer ends at `out1_2` of them. -/
theorem sound_kernel1 (c : Dev nD) (E : Set ℕ) (i : grid1.Coords) (arg2 : Memref sig .tc .vmem S512x1024 .f32) (harg2 : arg2.IsWhole) (arg3 : Memref sig .tc .vmem S2048x1024 .f32) (harg3 : arg3.IsWhole) (arg4 : Memref sig .tc .vmem S512x2048 .f32) (harg4 : arg4.IsWhole)
    (x0 : Vec Ideal S512x1024 .f32) (x1 : Vec Ideal S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := Ideal)) Variants.none c none) E (cc1_vocab_proj_kernel i arg2 harg2 arg3 harg3 arg4 harg4) K := by
  simp only [cc1_vocab_proj_kernel_eq_skeleton]; unfold cc1_vocab_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨r1_2, _⟩] S512x2048.size (by rfl))

/-- The embedding block at point `t` filled out to the staging buffer's 2048 rows: the rows inside the array, and zero past
    the array's end (the body obligation states nothing of those rows; any filler would do). -/
def eblk (c : Dev nD) (t : Fin cfg1.N) : S2048x1024.Idx → EReal :=
  win1_1.fill (grid1.coords t) (fun _ => (0 : EReal)) (iblk1 V c 1 t)

/-- The pipeline's proof data on core `c`: after the body the hidden layer's buffer holds the hidden layer, the embedding
    window's its filled block, the result's the product of the two. -/
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => eblk V c t
    | ⟨2, _⟩ => out1_2 (iblk1 V c 0 t) (eblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = eblk V c t := by dsimp only [dat1]
theorem after1_2 (c : Dev nD) (t : Fin cfg1.N) : (dat1 V c).after 2 t = out1_2 (iblk1 V c 0 t) (eblk V c t) := by dsimp only [dat1]

theorem before1_0 (c : Dev nD) (t : Fin cfg1.N) (d) : (dat1 V c).before 0 t d = iblk1 V c 0 t :=
  before1_0_of V (dat1 V c) (A_eq1 V c 0) (after1_0 V c) t d

/-- The embedding window is fetched at every point: its buffer holds the block on the rows inside the array and `d`,
    contents nothing names, past the array's end. -/
theorem before1_1 (c : Dev nD) (t : Fin cfg1.N) (d) :
    (dat1 V c).before 1 t d = win1_1.fill (grid1.coords t) d (iblk1 V c 1 t) := by
  unfold Dat.before; rw [if_pos (fetch1_1 t)]; rfl

/-- The result's window is written back at every point: the body finds its buffer at contents nothing names. -/
theorem before1_2 (c : Dev nD) (t : Fin cfg1.N) (d) : (dat1 V c).before 2 t d = d := by
  unfold Dat.before
  rw [if_neg (by rw [show (cfg1.win 2).fetch t = false from (by decide +kernel : ∀ t : Fin grid1.N, win1_2.fetch t = false) t]; exact Bool.false_ne_true)]
  by_cases ht : t.val = 0
  · rw [if_pos ht]
  · rw [if_neg ht]; exact if_pos (flush1_2 _)

/-- THE COLUMNS INSIDE THE ARRAY do not depend on the rows past the embedding table's end: entry (p, q) of the block
    product reads row q of the embedding block, and a column q the write-back keeps is a row the fetch filled. -/
theorem cut_out_indep (t : Fin cfg1.N) (x0 : Vec Ideal S512x1024 .f32) (d d' : S2048x1024.Idx → EReal)
    (g : (win1_1.xblock (grid1.coords t)).Idx → EReal) :
    win1_2.cut (grid1.coords t) (out1_2 x0 (win1_1.fill (grid1.coords t) d g))
      = win1_2.cut (grid1.coords t) (out1_2 x0 (win1_1.fill (grid1.coords t) d' g)) := by
  funext j
  obtain ⟨e0, e1⟩ := xsize_facts t
  have hq : (j 1).val < win1_1.xsize (grid1.coords t) 0 := by rw [← e0]; exact (j 1).isLt
  have hq' : (j 1).val < 2048 := Nat.lt_of_lt_of_le hq (win1_1.xsize_le (grid1.coords t) 0)
  have hp : (j 0).val < 512 := Nat.lt_of_lt_of_le (j 0).isLt (win1_2.xsize_le (grid1.coords t) 0)
  have hx : win1_2.xinj (grid1.coords t) j = ix2 (⟨(j 0).val, hp⟩ : Fin 512) (⟨(j 1).val, hq'⟩ : Fin 2048) := by
    funext a; apply Fin.ext
    match a with
    | ⟨0, _⟩ => rfl
    | ⟨1, _⟩ => rfl
  show out1_2 x0 _ (win1_2.xinj (grid1.coords t) j) = out1_2 x0 _ (win1_2.xinj (grid1.coords t) j)
  rw [hx, out1_2_apply, out1_2_apply]
  refine Finset.sum_congr rfl fun k _ => ?_
  have hm : win1_1.moved (grid1.coords t) (ix2 (⟨(j 1).val, hq'⟩ : Fin 2048) k) = true := by
    rw [Window.moved_iff]
    intro a
    match a with
    | ⟨0, _⟩ => exact hq
    | ⟨1, _⟩ => show k.val < win1_1.xsize (grid1.coords t) 1; rw [e1]; exact k.isLt
  unfold Window.fill
  rw [dif_pos hm, dif_pos hm]

/-- The body at any point, with the three windows written out: the hidden layer's buffer is handed back as found, the
    embedding window's on its rows inside the array, and the result's on its columns inside the array. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d)))
    ⊢ wp frame (wpE (defs₀ (F := Ideal)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ (∃ d, owns (c : Thread nD τ) (st1_1 t) fullShare ((cfg1.win 1).fill (cfg1.grid.coords t) d ((cfg1.win 1).cut (cfg1.grid.coords t) ((dat1 V c).after 1 t))))
        ∗ (∃ d, owns (c : Thread nD τ) (st1_2 t) fullShare ((cfg1.win 2).fill (cfg1.grid.coords t) d ((cfg1.win 2).cut (cfg1.grid.coords t) ((dat1 V c).after 2 t)))))) := by
  unfold bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (win1_1.fill (grid1.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  have h1 : (cfg1.win 1).fill (cfg1.grid.coords t) d1 ((cfg1.win 1).cut (cfg1.grid.coords t) (eblk V c t))
      = win1_1.fill (grid1.coords t) d1 (iblk1 V c 1 t) := by
    unfold eblk
    exact congrArg (win1_1.fill (grid1.coords t) d1) (win1_1.cut_fill _ _ _)
  have h2 : (cfg1.win 2).fill (cfg1.grid.coords t) (out1_2 (iblk1 V c 0 t) (win1_1.fill (grid1.coords t) d1 (iblk1 V c 1 t)))
        ((cfg1.win 2).cut (cfg1.grid.coords t) (out1_2 (iblk1 V c 0 t) (eblk V c t)))
      = out1_2 (iblk1 V c 0 t) (win1_1.fill (grid1.coords t) d1 (iblk1 V c 1 t)) :=
    win1_2.fill_congr_cut (grid1.coords t) (cut_out_indep t (iblk1 V c 0 t) d1 (fun _ => 0) (iblk1 V c 1 t))
  isplitl [H1]
  · iexists d1; rw [h1]; iexact H1
  · iexists _; rw [h2]; iexact H2

/-- The body obligation of the second pallas_call, in the form for windows whose edge blocks are clipped. -/
theorem body_obligation1 (c : Dev nD) : BodyObligationLoose (dat1 V c) (defs₀ (F := Ideal)) Variants.none () Set.univ := fun t => by
  rw [bigSep_W1, bigSep_W1]
  exact sound_body1 V c t

end Cert.ReferenceIdeal.RFrame

end
-- ==== Proof.RRun.lean ====
/-
  The run of the reference at the extended reals: @main is two reshapes, the pallas_call computing the hidden layer, the
  pallas_call computing the logits, and a reshape. Every weakly fair execution terminates without a fault; at the end the
  result buffer holds the closing reshape of what the second pipeline's write-backs leave in its output array (`W4` below,
  a fold through @main from the launch memory) and the four arguments hold what they were launched with.
-/
import proofs.«142579_g2000502499518764_pallasbulk_978_2_alg».proof.Proof.RBody0
import proofs.«142579_g2000502499518764_pallasbulk_978_2_alg».proof.Proof.RBody1

set_option maxRecDepth 16384

noncomputable section

namespace Cert.ReferenceIdeal.RFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The buffers' contents between the four items of @main

The launch memory; after the two reshapes; after the first pallas_call, whose arrays hold what its write-backs leave;
after the second; after the closing reshape. -/

/-- Core `c`'s buffers at launch. -/
abbrev W0 : Dev nD → Valuation τ sig (Elt Ideal) := fun c b => (s₀ m ρ).mem ((c : Dev nD), b)
/-- After the two reshapes that flatten `x` to [512, 1024] and lay the bias out as a row. -/
abbrev W1 : Dev nD → Valuation τ sig (Elt Ideal) := fun c => StableHlo.after hostOps0 (W0 m ρ c)
/-- The same, read at the core's own references. -/
abbrev V1 : (c : Dev nD) → (b : Ref sig .tc) → Buf (Elt Ideal) ((c : Thread nD τ).loc b) := fun c b => W1 m ρ c b
/-- After the first pallas_call: its four arrays at what the pipeline leaves, every other buffer as it was. -/
def W2 (c : Dev nD) : Valuation τ sig (Elt Ideal) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references. -/
abbrev V2 : (c : Dev nD) → (b : Ref sig .tc) → Buf (Elt Ideal) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pallas_call: its three arrays at what the pipeline leaves, every other buffer as it was. -/
def W3 (c : Dev nD) : Valuation τ sig (Elt Ideal) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the core's own references. -/
abbrev V3 : (c : Dev nD) → (b : Ref sig .tc) → Buf (Elt Ideal) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the closing reshape of the logits to [8, 64, 32000]. -/
abbrev W4 : Dev nD → Valuation τ sig (Elt Ideal) := fun c => StableHlo.after hostOps2 (W3 m ρ c)

/-! ## The arguments end as launched

No reshape writes an argument and no pallas_call writes one back: `w1` and `emb` are input windows' arrays, `x` and `b1`
are read only through their reshaped copies. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := (W3_arr m ρ c 1).trans (((dat1 (V2 m ρ) c).arrAt_in 1 rfl _).trans (A_eq1 (V2 m ρ) c 1))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data of the two pipelines, and what rides beside the buffers -/

/-- No pallas_call has a prefetched table. -/
abbrev adm : (p : Fin 2) → (pcfgs (F := Ideal) p).Adm := fun p => (cfgs p).toPCfg_adm
/-- Each pipeline's proof data at the contents its region is entered with. -/
def pdats : (p : Fin 2) → (c : Dev nD) → Dat τ (Elt Ideal) Unit ℕ (UR sig nD τ) ℕ (Pipeline.pin (pcfgs (F := Ideal)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers every segment carries the core's generator register, at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt Ideal))).Forall fun op => op.fresh = ∅ := by
  simp only [List.Forall]; repeat' constructor
theorem hostOps2_fresh : (hostOps2 : List (HloOp τ sig (Elt Ideal))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- THE FIRST PALLAS_CALL as a segment: entered with every unscoped buffer at `W1`, left with them at `W2`. Its arrays are
    split out of the unscoped buffers on entry and put back, at what the pipeline leaves, on exit. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PALLAS_CALL as a segment, from `W2` to `W3`; its body obligation is the one for clipped edge blocks. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V2 m ρ) c
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's four segments in order. -/
abbrev segs : List (Pipeline.Seg (pcfgs (F := Ideal)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of those segments. -/
theorem main_run (c : Dev nD) : main (F := Ideal) c = Pipeline.Seg.run (segs m ρ) := (main_chain c).trans (by chain_rfl)

set_option backward.isDefEq.respectTransparency.types false in
set_option backward.isDefEq.respectTransparency.types false in
/-- THE RUN: every weakly fair execution of @main from memory `m` with zero counters terminates, nothing faulting; the
    result buffer ends at `W4`'s contents and the arguments as launched. -/
theorem run_W4 : θ_run defs (onTc (τ := τ) (main (F := Ideal))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.ReferenceIdeal.RFrame

end
-- ==== Proof.RValue0.lean ====
/-
  What the first pallas_call of the reference leaves in its output array: the hidden layer of the arrays it is entered with.
  Its grid has one point and every block is its whole array, so the one write-back writes the body's result for the whole
  arrays.
-/
import proofs.«142579_g2000502499518764_pallasbulk_978_2_alg».proof.Proof.RBody0
import proofs.«142579_g2000502499518764_pallasbulk_978_2_alg».proof.Proof.Spec
import proofs.«142579_g2000502499518764_pallasbulk_978_2_alg».proof.Proof.LibDotT
import Idealize.ShloMosaic.Lib.ValueIdx
import Idealize.ShloMosaic.Lib.ValueLayout
import Idealize.ShloMosaic.Lib.Pipeline.Value

set_option maxRecDepth 16384

noncomputable section

namespace Cert.ReferenceIdeal.RFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

theorem hz2' : (![0, 0] : Fin 2 → Nat) = fun _ => 0 := funext fun a => by fin_cases a <;> rfl

/-- Entry (p, n) of the body's result over the extended reals: row p of the activations against row n of the weights, plus
    the bias of feature n, clamped below at zero. -/
theorem out0_3_apply (x0 : Vec Ideal S512x1024 .f32) (x1 : Vec Ideal S1024x1024 .f32) (x2 : Vec Ideal S1x1024 .f32)
    (p : Fin 512) (n : Fin 1024) :
    out0_3 x0 x1 x2 (ix2 p n) = Cert.Spec.hiddenAt x0 x1 x2 p n := by
  unfold out0_3
  rw [View.canon_unit_zero hz2']
  simp only [View.ld_unit_zero (S := S512x1024) hz2', View.ld_unit_zero (S := S1024x1024) hz2', View.ld_unit_zero (S := S1x1024) hz2']
  unfold k0_pay1
  rw [shapeCast_self, shapeCast_self]
  show max (matmul dot_S512x1024_S1024x1024_S512x1024_1_1_0_0_n_n none x0 x1 (constant (F := Ideal) S512x1024 .f32 0x00000000#32) (ix2 p n)
      + broadcastTo S512x1024 x2 broadcasts_S1x1024_S512x1024 (ix2 p n)) (Ideal.ofBits .f32 0x00000000#32) = _
  rw [Cert.LibDotT.matmulT_zero_apply dot_S512x1024_S1024x1024_S512x1024_1_1_0_0_n_n rfl rfl rfl rfl (fun _ _ => rfl) (fun _ _ => rfl) none x0 x1 p n,
    Ideal.ofBits_zero_f32,
    broadcastTo_apply x2 broadcasts_S1x1024_S512x1024 (ix2 p n) (ix2 0 n) (fun a => by match a with | ⟨0, _⟩ => rfl | ⟨1, _⟩ => rfl)]
  rfl

variable (V : (c : Dev nD) → (b : Ref sig .tc) → Buf (Elt Ideal) ((c : Thread nD τ).loc b))

/-- The index maps at the grid's one point: every block index is zero on both axes. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0)

/-- The activations' block is the whole flattened array. -/
theorem iblk0_0_apply (c : Dev nD) (t : Fin cfg0.N) (p : Fin 512) (j : Fin 1024) :
    iblk0 V c 0 t (ix2 p j) = V c main_v0 (ix2 p j) := by
  obtain ⟨e0, e1, -⟩ := idx_facts0 t
  show V c main_v0 (((cfg0.win 0).blk t).view.emb (ix2 p j)) = V c main_v0 (ix2 p j)
  refine congrArg (V c main_v0) (funext fun a => Fin.ext ?_)
  match a with
  | ⟨0, _⟩ => show win0_0.index t (0 : Fin 2) * 512 + 1 * p.val = p.val; rw [e0]; omega
  | ⟨1, _⟩ => show win0_0.index t (1 : Fin 2) * 1024 + 1 * j.val = j.val; rw [e1]; omega

/-- The weights' block is the whole weight matrix. -/
theorem iblk0_1_apply (c : Dev nD) (t : Fin cfg0.N) (n : Fin 1024) (j : Fin 1024) :
    iblk0 V c 1 t (ix2 n j) = V c main_arg1 (ix2 n j) := by
  obtain ⟨-, -, e0, e1, -⟩ := idx_facts0 t
  show V c main_arg1 (((cfg0.win 1).blk t).view.emb (ix2 n j)) = V c main_arg1 (ix2 n j)
  refine congrArg (V c main_arg1) (funext fun a => Fin.ext ?_)
  match a with
  | ⟨0, _⟩ => show win0_1.index t (0 : Fin 2) * 1024 + 1 * n.val = n.val; rw [e0]; omega
  | ⟨1, _⟩ => show win0_1.index t (1 : Fin 2) * 1024 + 1 * j.val = j.val; rw [e1]; omega

/-- The bias block is the whole bias row. -/
theorem iblk0_2_apply (c : Dev nD) (t : Fin cfg0.N) (z : Fin 1) (n : Fin 1024) :
    iblk0 V c 2 t (ix2 z n) = V c main_v1 (ix2 z n) := by
  obtain ⟨-, -, -, -, e0, e1, -⟩ := idx_facts0 t
  show V c main_v1 (((cfg0.win 2).blk t).view.emb (ix2 z n)) = V c main_v1 (ix2 z n)
  refine congrArg (V c main_v1) (funext fun a => Fin.ext ?_)
  match a with
  | ⟨0, _⟩ => show win0_2.index t (0 : Fin 2) * 1 + 1 * z.val = z.val; rw [e0]; omega
  | ⟨1, _⟩ => show win0_2.index t (1 : Fin 2) * 1024 + 1 * n.val = n.val; rw [e1]; omega

/-- WHAT THE ONE POINT WRITES BACK is the hidden layer of the arrays the region is entered with, read through the block. -/
theorem flushed0_eq (c : Dev nD) (t : Fin cfg0.N) :
    (dat0 V c).flushed 3 t
      = ((cfg0.win 3).blk t).view.read (Elt Ideal) (Cert.Spec.hidden (V c main_v0) (V c main_arg1) (V c main_v1)) := by
  show (cfg0.win 3).cut (grid0.coords t) ((dat0 V c).after 3 t) = _
  rw [after0_3]
  funext y
  obtain ⟨p, n, rfl⟩ : ∃ (p : Fin 512) (n : Fin 1024), y = ix2 p n := ⟨y 0, y 1, eq_ix2 y⟩
  obtain ⟨-, -, -, -, -, -, e0, e1⟩ := idx_facts0 t
  have hx : (cfg0.win 3).xinj (grid0.coords t) (ix2 p n) = ix2 p n :=
    funext fun a => Fin.ext (by match a with | ⟨0, _⟩ => rfl | ⟨1, _⟩ => rfl)
  have hemb : ((cfg0.win 3).blk t).view.emb (ix2 p n) = ix2 p n := by
    funext a; apply Fin.ext
    match a with
    | ⟨0, _⟩ => show win0_3.index t (0 : Fin 2) * 512 + 1 * p.val = p.val; rw [e0]; omega
    | ⟨1, _⟩ => show win0_3.index t (1 : Fin 2) * 1024 + 1 * n.val = n.val; rw [e1]; omega
  show out0_3 (iblk0 V c 0 t) (iblk0 V c 1 t) (iblk0 V c 2 t) ((cfg0.win 3).xinj (grid0.coords t) (ix2 p n))
    = Cert.Spec.hidden (V c main_v0) (V c main_arg1) (V c main_v1) (((cfg0.win 3).blk t).view.emb (ix2 p n))
  rw [hx, hemb, out0_3_apply, Cert.Spec.hidden_ix2]
  unfold Cert.Spec.hiddenAt
  simp only [iblk0_0_apply, iblk0_1_apply, iblk0_2_apply]

/-- The one block is the whole output array. -/
theorem cover0 (i : S512x1024.Idx) :
    ∃ t : Fin cfg0.N, (cfg0.win 3).flush t = true ∧ i ∈ ((cfg0.win 3).blk t).view.set := by
  refine ⟨t0_0, flush0_3 _, ?_⟩
  obtain ⟨-, -, -, -, -, -, e0, e1⟩ := idx_facts0 t0_0
  show i ∈ ((View.whole main_v2).slice (win0_3.rect t0_0)).set
  rw [View.set_slice_whole, Rect.mem_set_unit]
  intro a
  match a with
  | ⟨0, _⟩ =>
    show win0_3.index t0_0 (0 : Fin 2) * 512 ≤ (i 0).val ∧ (i 0).val < win0_3.index t0_0 (0 : Fin 2) * 512 + 512
    have h0 : (i 0).val < 512 := (i 0).isLt
    rw [e0]; omega
  | ⟨1, _⟩ =>
    show win0_3.index t0_0 (1 : Fin 2) * 1024 ≤ (i 1).val ∧ (i 1).val < win0_3.index t0_0 (1 : Fin 2) * 1024 + 1024
    have h1 : (i 1).val < 1024 := (i 1).isLt
    rw [e1]; omega

/-- THE OUTPUT ARRAY after the first pallas_call is the hidden layer of the arrays the region is entered with. -/
theorem final0 (c : Dev nD) :
    (dat0 V c).arrAt 3 cfg0.N = Cert.Spec.hidden (V c main_v0) (V c main_arg1) (V c main_v1) :=
  (dat0 V c).arrAt_eq_of_cover 3 _ (fun t _ => flushed0_eq V c t) cover0

end Cert.ReferenceIdeal.RFrame

end
-- ==== Proof.RValue1.lean ====
/-
  What the second pallas_call of the reference leaves in its output array: the logits of the arrays it is entered with.
  Point t of the 16 writes back columns 2048·t … of the result, as many as lie inside the array (2048, but 1280 at the last
  point); on those columns the block product reads only embedding rows inside the table, and the sixteen blocks' columns
  are all 32000.
-/
import proofs.«142579_g2000502499518764_pallasbulk_978_2_alg».proof.Proof.RBody1
import proofs.«142579_g2000502499518764_pallasbulk_978_2_alg».proof.Proof.Spec
import Idealize.ShloMosaic.Lib.ValueIdx
import Idealize.ShloMosaic.Lib.Pipeline.Value

set_option maxRecDepth 16384

noncomputable section

namespace Cert.ReferenceIdeal.RFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (V : (c : Dev nD) → (b : Ref sig .tc) → Buf (Elt Ideal) ((c : Thread nD τ).loc b))

/-- The index maps and the clipped extents, decided over the 16 points: the hidden layer's block index is zero, the
    embedding block's row index and the result block's column index are the point, the result block keeps all 512 rows
    and the columns that lie inside the array. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_2.xsize (grid1.coords t) 0 = 512 ∧ win1_2.xsize (grid1.coords t) 1 = min 2048 (32000 - 2048 * t.val) :=
  (by decide +kernel : ∀ t : Fin grid1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_2.xsize (grid1.coords t) 0 = 512 ∧ win1_2.xsize (grid1.coords t) 1 = min 2048 (32000 - 2048 * t.val))

/-- The hidden layer's block is the whole hidden layer. -/
theorem iblk1_0_apply (c : Dev nD) (t : Fin cfg1.N) (p : Fin 512) (k : Fin 1024) :
    iblk1 V c 0 t (ix2 p k) = V c main_v2 (ix2 p k) := by
  obtain ⟨e0, e1, -⟩ := idx_facts1 t
  show V c main_v2 (((cfg1.win 0).blk t).view.emb (ix2 p k)) = V c main_v2 (ix2 p k)
  refine congrArg (V c main_v2) (funext fun a => Fin.ext ?_)
  match a with
  | ⟨0, _⟩ => show win1_0.index t (0 : Fin 2) * 512 + 1 * p.val = p.val; rw [e0]; omega
  | ⟨1, _⟩ => show win1_0.index t (1 : Fin 2) * 1024 + 1 * k.val = k.val; rw [e1]; omega

/-- Row q of the filled embedding block, for a row the fetch filled, is row 2048·t + q of the table. -/
theorem eblk_apply (c : Dev nD) (t : Fin cfg1.N) (q : Fin 2048) (k : Fin 1024)
    (hq : q.val < win1_1.xsize (grid1.coords t) 0) (v : Fin 32000) (hv : v.val = t.val * 2048 + q.val) :
    eblk V c t (ix2 q k) = V c main_arg3 (ix2 v k) := by
  obtain ⟨-, -, e0, e1, -⟩ := idx_facts1 t
  obtain ⟨-, xs1⟩ := xsize_facts t
  have hm : win1_1.moved (grid1.coords t) (ix2 q k) = true := by
    rw [Window.moved_iff]
    intro a
    match a with
    | ⟨0, _⟩ => exact hq
    | ⟨1, _⟩ => show k.val < win1_1.xsize (grid1.coords t) 1; rw [xs1]; exact k.isLt
  unfold eblk Window.fill
  rw [dif_pos hm]
  show V c main_arg3 (((cfg1.win 1).blk t).view.emb _) = V c main_arg3 (ix2 v k)
  refine congrArg (V c main_arg3) (funext fun a => Fin.ext ?_)
  match a with
  | ⟨0, _⟩ => show win1_1.index t (0 : Fin 2) * 2048 + 1 * q.val = v.val; rw [e0, hv]; omega
  | ⟨1, _⟩ => show win1_1.index t (1 : Fin 2) * 1024 + 1 * k.val = k.val; rw [e1]; omega

/-- WHAT POINT t WRITES BACK is the logits of the arrays the region is entered with, read through the point's block cut at
    the array's end. -/
theorem flushed1_eq (c : Dev nD) (t : Fin cfg1.N) :
    (dat1 V c).flushed 2 t
      = ((cfg1.win 2).blk t).view.read (Elt Ideal) (Cert.Spec.logits (V c main_v2) (V c main_arg3)) := by
  show (cfg1.win 2).cut (grid1.coords t) ((dat1 V c).after 2 t) = _
  rw [after1_2]
  funext j
  obtain ⟨-, -, -, -, e20, e21, x0, x1⟩ := idx_facts1 t
  obtain ⟨xs0, -⟩ := xsize_facts t
  have hN : grid1.N = 16 := N_1
  have ht : t.val < 16 := lt_of_lt_of_eq t.isLt N_1
  have hj1 : (j 1).val < win1_2.xsize (grid1.coords t) 1 := (j 1).isLt
  have hq : (j 1).val < win1_1.xsize (grid1.coords t) 0 := by rw [← xs0]; exact hj1
  have hq' : (j 1).val < 2048 := Nat.lt_of_lt_of_le hq (win1_1.xsize_le (grid1.coords t) 0)
  have hp : (j 0).val < 512 := Nat.lt_of_lt_of_le (j 0).isLt (win1_2.xsize_le (grid1.coords t) 0)
  have hv : t.val * 2048 + (j 1).val < 32000 := by rw [x1] at hj1; omega
  have hx : win1_2.xinj (grid1.coords t) j = ix2 (⟨(j 0).val, hp⟩ : Fin 512) (⟨(j 1).val, hq'⟩ : Fin 2048) := by
    funext a; apply Fin.ext
    match a with
    | ⟨0, _⟩ => rfl
    | ⟨1, _⟩ => rfl
  have hemb : ((cfg1.win 2).blk t).view.emb j
      = ix2 (⟨(j 0).val, hp⟩ : Fin 512) (⟨t.val * 2048 + (j 1).val, hv⟩ : Fin 32000) := by
    funext a; apply Fin.ext
    match a with
    | ⟨0, _⟩ => show win1_2.index t (0 : Fin 2) * 512 + 1 * (j 0).val = (j 0).val; rw [e20]; omega
    | ⟨1, _⟩ => show win1_2.index t (1 : Fin 2) * 2048 + 1 * (j 1).val = t.val * 2048 + (j 1).val; rw [e21]; omega
  show out1_2 (iblk1 V c 0 t) (eblk V c t) (win1_2.xinj (grid1.coords t) j)
    = Cert.Spec.logits (V c main_v2) (V c main_arg3) (((cfg1.win 2).blk t).view.emb j)
  rw [hx, hemb, out1_2_apply, Cert.Spec.logits_ix2]
  unfold Cert.Spec.logitsAt
  refine Finset.sum_congr rfl fun k _ => ?_
  rw [iblk1_0_apply, eblk_apply V c t _ k hq ⟨_, hv⟩ rfl]

/-- An index of the result is in point t's block iff, on each axis, it is among the block's coordinates inside the array. -/
theorem mem_blk1 (t : Fin cfg1.N) (i : S512x32000.Idx) :
    i ∈ ((cfg1.win 2).blk t).view.set ↔ ∀ a : Fin 2, win1_2.index t a * S512x2048.size a ≤ (i a).val
      ∧ (i a).val < win1_2.index t a * S512x2048.size a + win1_2.xsize (grid1.coords t) a := by
  show i ∈ ((View.whole main_v3).slice (win1_2.rect t)).set ↔ _
  rw [View.set_slice_whole, Rect.mem_set_unit]
  exact Iff.rfl

/-- Column v lies in the block of point v / 2048: the sixteen cut blocks cover the result. -/
theorem cover1 (i : S512x32000.Idx) :
    ∃ t : Fin cfg1.N, (cfg1.win 2).flush t = true ∧ i ∈ ((cfg1.win 2).blk t).view.set := by
  have hi0 : (i 0).val < 512 := (i 0).isLt
  have hi1 : (i 1).val < 32000 := (i 1).isLt
  have hN : grid1.N = 16 := N_1
  have hlt : (i 1).val / 2048 < cfg1.N := by show _ < grid1.N; rw [hN]; omega
  obtain ⟨-, -, -, -, e20, e21, x0, x1⟩ := idx_facts1 ⟨(i 1).val / 2048, hlt⟩
  refine ⟨⟨(i 1).val / 2048, hlt⟩, flush1_2 _, ?_⟩
  rw [mem_blk1]
  intro a
  match a with
  | ⟨0, _⟩ =>
    show win1_2.index ⟨(i 1).val / 2048, hlt⟩ (0 : Fin 2) * 512 ≤ (i 0).val
      ∧ (i 0).val < win1_2.index ⟨(i 1).val / 2048, hlt⟩ (0 : Fin 2) * 512 + win1_2.xsize (grid1.coords ⟨(i 1).val / 2048, hlt⟩) 0
    rw [e20, x0]; omega
  | ⟨1, _⟩ =>
    show win1_2.index ⟨(i 1).val / 2048, hlt⟩ (1 : Fin 2) * 2048 ≤ (i 1).val
      ∧ (i 1).val < win1_2.index ⟨(i 1).val / 2048, hlt⟩ (1 : Fin 2) * 2048 + win1_2.xsize (grid1.coords ⟨(i 1).val / 2048, hlt⟩) 1
    rw [e21, x1]
    show (i 1).val / 2048 * 2048 ≤ (i 1).val ∧ (i 1).val < (i 1).val / 2048 * 2048 + min 2048 (32000 - 2048 * ((i 1).val / 2048))
    omega

/-- THE OUTPUT ARRAY after the second pallas_call is the logits of the arrays the region is entered with. -/
theorem final1 (c : Dev nD) :
    (dat1 V c).arrAt 2 cfg1.N = Cert.Spec.logits (V c main_v2) (V c main_arg3) :=
  (dat1 V c).arrAt_eq_of_cover 2 _ (fun t _ => flushed1_eq V c t) cover1

end Cert.ReferenceIdeal.RFrame

end
-- ==== Proof.RValue.lean ====
/-
  The reference's result at the extended reals. The buffers' contents are followed through @main: the two opening reshapes
  flatten `x` and lay the bias out as a row; the first pallas_call leaves the hidden layer of those in its output array; the
  second leaves the logits of the hidden layer and the embedding table; the closing reshape gives the result its three axes.
-/
import proofs.«142579_g2000502499518764_pallasbulk_978_2_alg».proof.Proof.RRun
import proofs.«142579_g2000502499518764_pallasbulk_978_2_alg».proof.Proof.RValue0
import proofs.«142579_g2000502499518764_pallasbulk_978_2_alg».proof.Proof.RValue1
import Idealize.ShloMosaic.Lib.StableHlo.Run

set_option maxRecDepth 16384

noncomputable section

namespace Cert.ReferenceIdeal.RFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The closing reshape: the result is the second pallas_call's output array at the shape [8, 64, 32000]. -/
theorem W4_main_v4 (c : Dev nD) :
    W4 m ρ c (Proc.devRef .tc main_v4)
      = shapeCast S8x64x32000 (W3 m ρ c (Proc.devRef .tc main_v3)) shapeCasts_S512x32000_S8x64x32000 := by
  show StableHlo.after hostOps2 (W3 m ρ c) (Proc.devRef .tc main_v4) = _
  after_results
  rfl

/-- The first opening reshape: the activations flattened to [512, 1024]. -/
theorem V1_main_v0 (c : Dev nD) :
    V1 m ρ c main_v0 = shapeCast S512x1024 (m ((c : Thread nD τ).loc main_arg0)) shapeCasts_S8x64x1024_S512x1024 := by
  show StableHlo.after hostOps0 (W0 m ρ c) (Proc.devRef .tc main_v0) = _
  after_results
  rfl

/-- The second opening reshape: the bias as a row [1, 1024]. -/
theorem V1_main_v1 (c : Dev nD) :
    V1 m ρ c main_v1 = shapeCast S1x1024 (m ((c : Thread nD τ).loc main_arg2)) shapeCasts_S1024_S1x1024 := by
  show StableHlo.after hostOps0 (W0 m ρ c) (Proc.devRef .tc main_v1) = _
  after_results
  rfl

/-- The reshapes do not write the weights. -/
theorem V1_main_arg1 (c : Dev nD) : V1 m ρ c main_arg1 = m ((c : Thread nD τ).loc main_arg1) := by
  show StableHlo.after hostOps0 (W0 m ρ c) (Proc.devRef .tc main_arg1) = _
  after_results

/-- Neither the reshapes nor the first pallas_call write the embedding table. -/
theorem V2_main_arg3 (c : Dev nD) : V2 m ρ c main_arg3 = m ((c : Thread nD τ).loc main_arg3) := by
  refine (W2_of_ne m ρ c main_arg3 (by decide)).trans ?_
  show StableHlo.after hostOps0 (W0 m ρ c) (Proc.devRef .tc main_arg3) = _
  after_results

/-- THE RESULT BUFFER at the end of @main, as a function of the launch memory. -/
theorem W4_value (c : Dev nD) :
    W4 m ρ c (Proc.devRef .tc main_v4)
      = shapeCast S8x64x32000
          (Cert.Spec.logits
            (Cert.Spec.hidden (shapeCast S512x1024 (m ((c : Thread nD τ).loc main_arg0)) shapeCasts_S8x64x1024_S512x1024)
              (m ((c : Thread nD τ).loc main_arg1))
              (shapeCast S1x1024 (m ((c : Thread nD τ).loc main_arg2)) shapeCasts_S1024_S1x1024))
            (m ((c : Thread nD τ).loc main_arg3)))
          shapeCasts_S512x32000_S8x64x32000 := by
  have h3 : W3 m ρ c (Proc.devRef .tc main_v3) = Cert.Spec.logits (V2 m ρ c main_v2) (V2 m ρ c main_arg3) :=
    (W3_arr m ρ c 2).trans (final1 (V2 m ρ) c)
  have h2 : V2 m ρ c main_v2 = Cert.Spec.hidden (V1 m ρ c main_v0) (V1 m ρ c main_arg1) (V1 m ρ c main_v1) :=
    (W2_arr m ρ c 3).trans (final0 (V1 m ρ) c)
  rw [W4_main_v4, h3, h2, V2_main_arg3, V1_main_v0, V1_main_arg1, V1_main_v1]

end Cert.ReferenceIdeal.RFrame

namespace Cert.ReferenceIdeal.RValue

open Cert.ReferenceIdeal Cert.ReferenceIdeal.Gen Cert.ReferenceIdeal.RFrame
open Idealize.ShloMosaic Idealize.ShloMosaic.TcCoe Idealize.SL.Sem

/-- THE REFERENCE'S RUN with its result named: the logits, as a function of the four arguments, at the shape [8, 64, 32000];
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
        = shapeCast S8x64x32000
            (Cert.Spec.logits
              (Cert.Spec.hidden (shapeCast S512x1024 (m ((c.tc : Thread nD τ).loc main_arg0)) shapeCasts_S8x64x1024_S512x1024)
                (m ((c.tc : Thread nD τ).loc main_arg1))
                (shapeCast S1x1024 (m ((c.tc : Thread nD τ).loc main_arg2)) shapeCasts_S1024_S1x1024))
              (m ((c.tc : Thread nD τ).loc main_arg3)))
            shapeCasts_S512x32000_S8x64x32000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W4_value m ρ c), (h c).2⟩) (run_W4 m ρ)

end Cert.ReferenceIdeal.RValue

end
-- ==== Proof.lean ====
/-
  logits = max (x · w1ᵀ + b1) 0 · embᵀ, computed twice.

  Both programs flatten `x` to 512 rows, compute the hidden layer max (x · w1ᵀ + b1) 0 in one pallas_call and the logits
  hidden · embᵀ in a second, and give the result its three axes back. They differ in how they cut the work: one computes the
  hidden layer in two blocks of 256 rows, rounds its matrix operands to sixteen bits and keeps the hidden layer in sixteen
  bits, and computes the logits in 50 blocks of 640 columns; the other computes the hidden layer in one block and the
  logits in 16 blocks of 2048 columns, the last of which overhangs the 32000 columns and is clipped. Over the extended
  reals a change of float format is the identity and a matrix product into a zero accumulator is the sum over the
  contracted axis, so each program's result array is, index by index, the SAME function of the four arguments
  (`Cert.Spec.hidden`, `Cert.Spec.logits`): no law of arithmetic is used beyond reading both sides at an index, and the
  precondition is never opened.

  The frames of the two kernel-side programs are the generated ones. The reference's frame is its value run with the
  result forgotten. No rewrite separates the kernel from its idealization, so `preserves` has nothing to state.
-/
import proofs.«142579_g2000502499518764_pallasbulk_978_2_alg».proof.Defs
import proofs.«142579_g2000502499518764_pallasbulk_978_2_alg».proof.Proof.Gen.Kernel
import proofs.«142579_g2000502499518764_pallasbulk_978_2_alg».proof.Proof.Gen.Kernel.Frame
import proofs.«142579_g2000502499518764_pallasbulk_978_2_alg».proof.Proof.Gen.KernelIdeal
import proofs.«142579_g2000502499518764_pallasbulk_978_2_alg».proof.Proof.Gen.KernelIdeal.Frame
import proofs.«142579_g2000502499518764_pallasbulk_978_2_alg».proof.Proof.Gen.ReferenceIdeal
import proofs.«142579_g2000502499518764_pallasbulk_978_2_alg».proof.Proof.Gen.Pre_finite_inputs
import proofs.«142579_g2000502499518764_pallasbulk_978_2_alg».proof.Proof.KValue
import proofs.«142579_g2000502499518764_pallasbulk_978_2_alg».proof.Proof.RValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its value run, the result dropped. -/
theorem frame_ri : Cert.frame_ReferenceIdeal := fun m ρ _ =>
  (θ_run Cert.ReferenceIdeal.defs _ _).mono (fun _ h c => (h c).2) (Cert.ReferenceIdeal.RValue.run m ρ)

/-- Both result arrays are the reshaped logits of the same four arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
